-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 80
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x1, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000, .f32⟩
  | .hbm, ⟨12, _⟩ => ⟨S50000x128, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x64, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S800000x1, .f32⟩
  | .hbm, ⟨107, _⟩ => ⟨S800000x64, .f32⟩
  | .hbm, ⟨108, _⟩ => ⟨S800000x64, .f32⟩
  | .hbm, ⟨109, _⟩ => ⟨S_, .f32⟩
  | .hbm, ⟨110, _⟩ => ⟨S50000x64, .f32⟩
  | .hbm, ⟨111, _⟩ => ⟨S800000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_cst : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_13 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«167582_j40896678592680_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.LibGcnLayer.lean ====
/-
  One graph-convolution layer read at an entry, in the two spellings it is computed in.

  With h = x · W the layer's output at node p and feature q is

      out[p, q] = (agg[p, q] + h[p, q] · s[p]) + b[q]          (then max(·, 0) in the first layer),

  agg the weighted sum over incoming edges, s[p] the self-loop weight of node p, b the bias. On the matrix unit the
  product is a matmul of operands rounded to bf16 (the identity on the extended reals) into zeros, the self-loop weights
  arrive as an [a, 1] column spread along the rows' entries and the bias as a [1, c] row spread down the rows; on the
  host the product is a dot_general, the weights a vector made a column and then a matrix, the bias a vector made a row
  and then a matrix. Entry by entry all of them are the formula above: `dense` for the product, `combine` and
  `combineClamped` for the rest. Generic in the extents.
-/
import proofs.«167582_j40896678592680_1_alg».proof.Proof.LibMatmulNN
import proofs.«167582_j40896678592680_1_alg».proof.Proof.LibDotNN
import proofs.«167582_j40896678592680_1_alg».proof.Proof.LibBroadcastRows
import proofs.«167582_j40896678592680_1_alg».proof.Proof.LibKeepdimsColumn
import proofs.«167582_j40896678592680_1_alg».proof.Proof.LibHostBroadcasts
import proofs.«167582_j40896678592680_1_alg».proof.Proof.LibRowOfVector
import Idealize.ShloMosaic.Lib.ValueLayout
import Idealize.ShloMosaic.Lib.Pipeline.Value
import Idealize.ShloMosaic.Lib.ValueIdx
import Idealize.ShloMosaic.PureOps.Ideal.Laws

noncomputable section

namespace Cert.GcnLayer

open Idealize.ShloMosaic Idealize.ShloMosaic.ValueIdx

variable {M K N : Nat}

/-- The dense product x · W, entry by entry. -/
def dense (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem dense_apply (x : FVec Ideal ⟨2, ![M, K]⟩ .f32) (w : FVec Ideal ⟨2, ![K, N]⟩ .f32) (p : Fin M) (q : Fin N) :
    dense x w (ix2 p q) = ∑ k : Fin K, x (ix2 p k) * w (ix2 k q) := rfl

/-- Aggregated messages plus the node's own features at its self-loop weight, plus the bias. -/
def combine (agg h : FVec Ideal ⟨2, ![M, N]⟩ .f32) (s : FVec Ideal ⟨1, ![M]⟩ .f32) (b : FVec Ideal ⟨1, ![N]⟩ .f32) :
    FVec Ideal ⟨2, ![M, N]⟩ .f32 :=
  fun i => (agg i + h i * s (ix1 (i 0))) + b (ix1 (i 1))

/-- The same with the self-loop weights kept as an [M, 1] column and the bias as a [1, N] row (how a kernel region finds
    them). -/
def combineCR (agg h : FVec Ideal ⟨2, ![M, N]⟩ .f32) (scol : FVec Ideal ⟨2, ![M, 1]⟩ .f32)
    (brow : FVec Ideal ⟨2, ![1, N]⟩ .f32) : FVec Ideal ⟨2, ![M, N]⟩ .f32 :=
  fun i => (agg i + h i * scol (ix2 (i 0) (0 : Fin 1))) + brow (ix2 (0 : Fin 1) (i 1))

/-- Every entry clamped below at the f32 zero. -/
def clamp (y : FVec Ideal ⟨2, ![M, N]⟩ .f32) : FVec Ideal ⟨2, ![M, N]⟩ .f32 :=
  fun i => max (y i) (Ideal.ofBits .f32 0x00000000#32)

theorem combine_apply (agg h : FVec Ideal ⟨2, ![M, N]⟩ .f32) (s : FVec Ideal ⟨1, ![M]⟩ .f32)
    (b : FVec Ideal ⟨1, ![N]⟩ .f32) (p : Fin M) (q : Fin N) :
    combine agg h s b (ix2 p q) = (agg (ix2 p q) + h (ix2 p q) * s (ix1 p)) + b (ix1 q) := rfl

theorem combineCR_apply (agg h : FVec Ideal ⟨2, ![M, N]⟩ .f32) (scol : FVec Ideal ⟨2, ![M, 1]⟩ .f32)
    (brow : FVec Ideal ⟨2, ![1, N]⟩ .f32) (p : Fin M) (q : Fin N) :
    combineCR agg h scol brow (ix2 p q)
      = (agg (ix2 p q) + h (ix2 p q) * scol (ix2 p (0 : Fin 1))) + brow (ix2 (0 : Fin 1) q) := rfl

theorem clamp_apply (y : FVec Ideal ⟨2, ![M, N]⟩ .f32) (i : (⟨2, ![M, N]⟩ : Shape).Idx) :
    clamp y i = max (y i) (Ideal.ofBits .f32 0x00000000#32) := rfl

/-- A vector cast to a column and a vector cast to a row are read back as the vectors. -/
theorem combineCR_casts (agg h : FVec Ideal ⟨2, ![M, N]⟩ .f32) (s : FVec Ideal ⟨1, ![M]⟩ .f32)
    (b : FVec Ideal ⟨1, ![N]⟩ .f32) (hs : (⟨1, ![M]⟩ : Shape).ShapeCasts ⟨2, ![M, 1]⟩)
    (hb : (⟨1, ![N]⟩ : Shape).ShapeCasts ⟨2, ![1, N]⟩) :
    combineCR agg h (shapeCast ⟨2, ![M, 1]⟩ s hs) (shapeCast ⟨2, ![1, N]⟩ b hb) = combine agg h s b := by
  funext i
  obtain ⟨p, q, rfl⟩ : ∃ (p : Fin M) (q : Fin N), i = ix2 p q := ⟨i 0, i 1, eq_ix2 i⟩
  rw [combineCR_apply, combine_apply, KeepdimsColumn.shapeCast_a_a1_apply, RowOfVector.row_apply]

/-! ## The product -/

/-- The matrix unit's product of operands rounded to bf16, into zeros, at (p, q): rounding is the identity on the
    extended reals, so it is the inner product of row p of x with column q of W. -/
theorem unit_dense_apply (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32)
    (h1 : FTy.bf16.bits < FTy.f32.bits) (h2 : FTy.bf16.bits < FTy.f32.bits) (p : Fin M) (q : Fin N) :
    FloatOps.matmul D none (truncf .bf16 x h1 : FVec Ideal ⟨2, ![M, K]⟩ .bf16) (truncf .bf16 w h2 : FVec Ideal ⟨2, ![K, N]⟩ .bf16)
        (constant (F := Ideal) ⟨2, ![M, N]⟩ .f32 0x00000000#32) (ix2 p q)
      = ∑ k : Fin K, x (ix2 p k) * w (ix2 k q) :=
  MatmulNN.matmul_zero_apply D hD none _ _ p q

/-- The host's product IS `dense`. -/
theorem host_dense (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) :
    Host.dotGeneral D none x w = dense x w := by
  funext i
  obtain ⟨p, q, rfl⟩ : ∃ (p : Fin M) (q : Fin N), i = ix2 p q := ⟨i 0, i 1, eq_ix2 i⟩
  rw [DotNN.dotGeneral_apply D hD none x w, dense_apply]

/-! ## The rest of the layer, on the vector unit -/

/-- The block spelling of the sum before the clamp, at (p, q): the column's entry (p, 0) is the row's self-loop weight,
    the row's entry (0, q) the feature's bias. -/
theorem unit_combine_apply {a c : Nat} (x0 x1 : FVec Ideal ⟨2, ![a, c]⟩ .f32) (x2 : FVec Ideal ⟨2, ![a, 1]⟩ .f32)
    (x3 : FVec Ideal ⟨2, ![1, c]⟩ .f32)
    (h0 h1 : (⟨2, ![a, c]⟩ : Shape).ShapeCasts ⟨2, ![a, c]⟩) (h2 : (⟨2, ![a, 1]⟩ : Shape).ShapeCasts ⟨2, ![a, 1]⟩)
    (h3 : (⟨2, ![1, c]⟩ : Shape).ShapeCasts ⟨2, ![1, c]⟩)
    (hb2 : (⟨2, ![a, 1]⟩ : Shape).Broadcasts ⟨2, ![a, c]⟩) (hb3 : (⟨2, ![1, c]⟩ : Shape).Broadcasts ⟨2, ![a, c]⟩)
    (p : Fin a) (q : Fin c) :
    addf (addf (shapeCast ⟨2, ![a, c]⟩ x0 h0)
          (mulf (shapeCast ⟨2, ![a, c]⟩ x1 h1) (broadcastTo ⟨2, ![a, c]⟩ (shapeCast ⟨2, ![a, 1]⟩ x2 h2) hb2)))
        (broadcastTo ⟨2, ![a, c]⟩ (shapeCast ⟨2, ![1, c]⟩ x3 h3) hb3) (ix2 p q)
      = (x0 (ix2 p q) + x1 (ix2 p q) * x2 (ix2 p (0 : Fin 1))) + x3 (ix2 (0 : Fin 1) q) := by
  rw [addf_apply, addf_apply, mulf_apply, KeepdimsColumn.broadcastTo_a1_ab_apply, broadcastTo_1b_ab_apply,
    shapeCast_self, shapeCast_self, shapeCast_self, shapeCast_self]

/-! ## The rest of the layer, on the host -/

/-- The host spelling of the sum before the clamp IS `combine`. -/
theorem host_combine (agg h : FVec Ideal ⟨2, ![M, N]⟩ .f32) (s : FVec Ideal ⟨1, ![M]⟩ .f32) (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf agg (mulf h (broadcastInDim ⟨2, ![M, N]⟩ ![0, 1] hs2 (broadcastInDim ⟨2, ![M, 1]⟩ ![0] hs1 s))))
        (broadcastInDim ⟨2, ![M, N]⟩ ![0, 1] hb2 (broadcastInDim ⟨2, ![1, N]⟩ ![1] hb1 b))
      = combine agg h s b := by
  funext i
  obtain ⟨p, q, rfl⟩ : ∃ (p : Fin M) (q : Fin N), i = ix2 p q := ⟨i 0, i 1, eq_ix2 i⟩
  rw [combine_apply, addf_apply, addf_apply, mulf_apply, HostBroadcasts.col_rows_apply,
    HostBroadcasts.col_apply, BroadcastRows.row_apply, BroadcastRows.unit_apply]

/-! ## The clamp -/

/-- The vector unit's maximum with the splat scalar zero, at an entry. -/
theorem unit_clamp_apply {a c : Nat} (y : FVec Ideal ⟨2, ![a, c]⟩ .f32) (i : (⟨2, ![a, c]⟩ : Shape).Idx) :
    maximumf y (broadcast ⟨2, ![a, c]⟩ (Scalar.ofBits (F := Ideal) .f32 0x00000000#32)) i
      = max (y i) (Ideal.ofBits .f32 0x00000000#32) := rfl

/-- The host's maximum with the scalar zero constant spread over the array IS `clamp`. -/
theorem host_clamp (y : FVec Ideal ⟨2, ![M, N]⟩ .f32) (dims : Fin 0 → Fin 2)
    (h0 : (⟨0, ![]⟩ : Shape).BroadcastsInDim ⟨2, ![M, N]⟩ dims) :
    maximumf y (broadcastInDim ⟨2, ![M, N]⟩ dims h0 (constant (F := Ideal) ⟨0, ![]⟩ .f32 0x00000000#32)) = clamp y := by
  funext i
  rw [maximumf_apply, HostBroadcasts.scalar_apply, constant_apply, clamp_apply]

end Cert.GcnLayer

end
-- ==== Proof.Region0.lean ====
/-
  Region 0 — the first dense product — read as one array.

  The region runs over ten grid points; point t stages rows 5000·t … 5000·t + 4999 of its [50000, 128] input, the whole
  [128, 128] weight matrix, and writes back the same rows of its [50000, 128] output. What the body leaves in the output
  block is the matrix unit's product of the two staged blocks, so at row r of the block and column q it is the inner
  product of row 5000·t + r of the input with column q of the weights: every written block is a block of ONE array, the
  dense product of the two arrays the region found, and the ten blocks cover it.
-/
import proofs.«167582_j40896678592680_1_alg».proof.Proof.Gen.KernelIdeal.Frame
import proofs.«167582_j40896678592680_1_alg».proof.Proof.LibGcnLayer
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the input and the output move down the rows with the point,
    the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at (p, q): the inner product of row p of the first block with column q of the second. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact GcnLayer.unit_dense_apply _ rfl x0 x1 _ _ p q

/-- A block that is rows r … r + 4999 of an array A0, multiplied by a block that is the array A1, is those rows of the
    dense product of A0 and A1. -/
theorem block_dense (x0 : Vec Ideal S5000x128 .f32) (x1 : Vec Ideal S128x128 .f32)
    (A0 : S50000x128.Idx → EReal) (A1 : S128x128.Idx → EReal) (r : Nat)
    (hx0 : ∀ (y : S5000x128.Idx) (i : S50000x128.Idx), (i 0).val = r + (y 0).val → (i 1).val = (y 1).val → x0 y = A0 i)
    (hx1 : x1 = A1) (y : S5000x128.Idx) (i : S50000x128.Idx)
    (h0 : (i 0).val = r + (y 0).val) (h1 : (i 1).val = (y 1).val) :
    k0_pay1 x0 x1 y = GcnLayer.dense A0 A1 i := by
  subst hx1
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  have hq : q' = q := Fin.ext h1
  subst hq
  rw [pay_apply, GcnLayer.dense_apply]
  refine Finset.sum_congr rfl fun k _ => ?_
  rw [hx0 (ix2 p k) (ix2 p' k) h0 rfl]

/-- The input window's block at point t is rows 5000·t … of the array the region found. -/
theorem rows_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := idx_facts t
  unfold iblk0
  rw [View.read_apply]
  show V c main_arg0 _ = V c main_arg0 i
  refine congrArg (V c main_arg0) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block is the whole weight array at every point. -/
theorem weights_eq (c : Dev nD) (t : Fin cfg0.N) :
    (iblk0 V c 1 t : Vec Ideal S128x128 .f32) = (V c main_arg3 : S128x128.Idx → EReal) := by
  obtain ⟨-, -, e2, e3, -⟩ := idx_facts t
  funext y
  unfold iblk0
  rw [View.read_apply]
  show V c main_arg3 _ = V c main_arg3 y
  refine congrArg (V c main_arg3) ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the dense product of the two arrays the region found. -/
theorem flushed_eq (c : Dev nD) (t : Fin cfg0.N) :
    (dat0 V c).flushed 2 t
      = ((cfg0.win 2).blk t).view.read (Elt Ideal) (GcnLayer.dense (V c main_arg0) (V c main_arg3)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j
    = GcnLayer.dense (V c main_arg0) (V c main_arg3) (((cfg0.win 2).blk t).view.emb j)
  refine block_dense (iblk0 V c 0 t) (iblk0 V c 1 t) (V c main_arg0) (V c main_arg3) (t.val * 5000)
    (fun y i h0 h1 => rows_apply V c t y i h0 h1) (weights_eq V c t) j (((cfg0.win 2).blk t).view.emb j) ?_ ?_
  · show win0_2.index t (0 : Fin 2) * 5000 + 1 * (j 0).val = t.val * 5000 + (j 0).val; rw [e4]; omega
  · show win0_2.index t (1 : Fin 2) * 128 + 1 * (j 1).val = (j 1).val; rw [e5]; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Row r of the output lies in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The region's output array after its ten points: the dense product of the two arrays it found. -/
theorem array_eq (c : Dev nD) :
    (dat0 V c).arrAt 2 cfg0.N = GcnLayer.dense (V c main_arg0) (V c main_arg3) :=
  (dat0 V c).arrAt_eq_of_cover 2 _ (fun t _ => flushed_eq V c t) cover

end Cert.KernelIdeal.Region0

end
-- ==== Proof.Region1.lean ====
/-
  Region 1 — the first layer's combination — read as one array.

  The region runs over ten grid points; point t stages rows 5000·t … 5000·t + 4999 of the aggregated messages, of the
  transformed features and of the [50000, 1] column of self-loop weights, the whole [1, 128] bias row, and writes back the
  same rows of its [50000, 128] output. What the body leaves at row r and column q of the output block is
  max((agg + h · s) + b, 0) of the entries at row 5000·t + r: every written block is a block of ONE array, the clamped
  combination of the four arrays the region found, and the ten blocks cover it.
-/
import proofs.«167582_j40896678592680_1_alg».proof.Proof.Gen.KernelIdeal.Frame
import proofs.«167582_j40896678592680_1_alg».proof.Proof.LibGcnLayer
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The five windows' block indices at every grid point: the aggregate, the features, the weight column and the output
    move down the rows with the point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's value at (p, q). -/
theorem pay_apply (x0 x1 : Vec Ideal S5000x128 .f32) (x2 : Vec Ideal S5000x1 .f32) (x3 : Vec Ideal S1x128 .f32)
    (p : Fin 5000) (q : Fin 128) :
    k1_pay1 x0 x1 x2 x3 (ix2 p q) = max ((x0 (ix2 p q) + x1 (ix2 p q) * x2 (ix2 p (0 : Fin 1))) + x3 (ix2 (0 : Fin 1) q)) (Ideal.ofBits .f32 0x00000000#32) := by
  unfold k1_pay1
  refine (GcnLayer.unit_clamp_apply _ (ix2 p q)).trans ?_
  rw [GcnLayer.unit_combine_apply]

/-- Blocks that are rows r … r + 4999 of arrays A0, A1 and of a column A2, with a block that is the row A3, combine to
    those rows of the arrays' combination. -/
theorem block_combine (x0 x1 : Vec Ideal S5000x128 .f32) (x2 : Vec Ideal S5000x1 .f32) (x3 : Vec Ideal S1x128 .f32)
    (A0 A1 : S50000x128.Idx → EReal) (A2 : S50000x1.Idx → EReal) (A3 : S1x128.Idx → EReal) (r : Nat)
    (hx0 : ∀ (y : S5000x128.Idx) (i : S50000x128.Idx), (i 0).val = r + (y 0).val → (i 1).val = (y 1).val → x0 y = A0 i)
    (hx1 : ∀ (y : S5000x128.Idx) (i : S50000x128.Idx), (i 0).val = r + (y 0).val → (i 1).val = (y 1).val → x1 y = A1 i)
    (hx2 : ∀ (y : S5000x1.Idx) (i : S50000x1.Idx), (i 0).val = r + (y 0).val → (i 1).val = (y 1).val → x2 y = A2 i)
    (hx3 : x3 = A3) (y : S5000x128.Idx) (i : S50000x128.Idx)
    (h0 : (i 0).val = r + (y 0).val) (h1 : (i 1).val = (y 1).val) :
    k1_pay1 x0 x1 x2 x3 y = GcnLayer.clamp (GcnLayer.combineCR A0 A1 A2 A3) i := by
  subst hx3
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  have hq : q' = q := Fin.ext h1
  subst hq
  rw [pay_apply, GcnLayer.clamp_apply, GcnLayer.combineCR_apply,
    hx0 (ix2 p q') (ix2 p' q') h0 rfl, hx1 (ix2 p q') (ix2 p' q') h0 rfl,
    hx2 (ix2 p (0 : Fin 1)) (ix2 p' (0 : Fin 1)) h0 rfl]

/-- The aggregate window's block at point t is rows 5000·t … of the array the region found. -/
theorem agg_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v42 : S50000x128.Idx → EReal) i := by
  obtain ⟨e0, e1, -⟩ := idx_facts t
  unfold iblk1
  rw [View.read_apply]
  show V c main_v42 _ = V c main_v42 i
  refine congrArg (V c main_v42) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The feature window's block at point t is rows 5000·t … of the array the region found. -/
theorem feat_apply (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_v29 : S50000x128.Idx → EReal) i := by
  obtain ⟨-, -, e0, e1, -⟩ := idx_facts t
  unfold iblk1
  rw [View.read_apply]
  show V c main_v29 _ = V c main_v29 i
  refine congrArg (V c main_v29) ?_
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The weight column's block at point t is rows 5000·t … of the column the region found. -/
theorem col_apply (c : Dev nD) (t : Fin cfg1.N) (y : S5000x1.Idx) (i : S50000x1.Idx)
    (h0 : (i 0).val = t.val * 5000 + (y 0).val) (h1 : (i 1).val = (y 1).val) :
    (iblk1 V c 2 t : Vec Ideal S5000x1 .f32) y = (V c main_v28 : S50000x1.Idx → EReal) i := by
  obtain ⟨-, -, -, -, e0, e1, -⟩ := idx_facts t
  unfold iblk1
  rw [View.read_apply]
  show V c main_v28 _ = V c main_v28 i
  refine congrArg (V c main_v28) ?_
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The bias row's block is the whole row at every point. -/
theorem row_eq (c : Dev nD) (t : Fin cfg1.N) :
    (iblk1 V c 3 t : Vec Ideal S1x128 .f32) = (V c main_v43 : S1x128.Idx → EReal) := by
  obtain ⟨-, -, -, -, -, -, e2, e3, -⟩ := idx_facts t
  funext y
  unfold iblk1
  rw [View.read_apply]
  show V c main_v43 _ = V c main_v43 y
  refine congrArg (V c main_v43) ?_
  funext a
  apply Fin.ext
  match a with
  | ⟨0, _⟩ => show win1_3.index t (0 : Fin 2) * 1 + 1 * (y 0).val = (y 0).val; rw [e2]; omega
  | ⟨1, _⟩ => show win1_3.index t (1 : Fin 2) * 128 + 1 * (y 1).val = (y 1).val; rw [e3]; omega

/-- What point t writes back is block t of the combination of the four arrays the region found. -/
theorem flushed_eq (c : Dev nD) (t : Fin cfg1.N) :
    (dat1 V c).flushed 4 t
      = ((cfg1.win 4).blk t).view.read (Elt Ideal)
          (GcnLayer.clamp (GcnLayer.combineCR (V c main_v42) (V c main_v29) (V c main_v28) (V c main_v43))) := by
  obtain ⟨-, -, -, -, -, -, -, -, e4, e5⟩ := idx_facts t
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  funext j
  show k1_pay1 (iblk1 V c 0 t) (iblk1 V c 1 t) (iblk1 V c 2 t) (iblk1 V c 3 t) j
    = GcnLayer.clamp (GcnLayer.combineCR (V c main_v42) (V c main_v29) (V c main_v28) (V c main_v43)) (((cfg1.win 4).blk t).view.emb j)
  refine block_combine (iblk1 V c 0 t) (iblk1 V c 1 t) (iblk1 V c 2 t) (iblk1 V c 3 t)
    (V c main_v42) (V c main_v29) (V c main_v28) (V c main_v43) (t.val * 5000)
    (fun y i h0 h1 => agg_apply V c t y i h0 h1) (fun y i h0 h1 => feat_apply V c t y i h0 h1)
    (fun y i h0 h1 => col_apply V c t y i h0 h1) (row_eq V c t) j (((cfg1.win 4).blk t).view.emb j) ?_ ?_
  · show win1_4.index t (0 : Fin 2) * 5000 + 1 * (j 0).val = t.val * 5000 + (j 0).val; rw [e4]; omega
  · show win1_4.index t (1 : Fin 2) * 128 + 1 * (j 1).val = (j 1).val; rw [e5]; omega

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v44).slice (win1_4.rect t)).set ↔ _
  rw [View.set_slice_whole, Rect.mem_set_unit]
  exact Iff.rfl

/-- Row r of the output lies in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e4, e5⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e5]; omega

/-- The region's output array after its ten points: the combination of the four arrays it found. -/
theorem array_eq (c : Dev nD) :
    (dat1 V c).arrAt 4 cfg1.N
      = GcnLayer.clamp (GcnLayer.combineCR (V c main_v42) (V c main_v29) (V c main_v28) (V c main_v43)) :=
  (dat1 V c).arrAt_eq_of_cover 4 _ (fun t _ => flushed_eq V c t) cover

end Cert.KernelIdeal.Region1

end
-- ==== Proof.Region2.lean ====
/-
  Region 2 — the second dense product — read as one array.

  The region runs over ten grid points; point t stages rows 5000·t … 5000·t + 4999 of its [50000, 128] input (the first
  layer's output), the whole [128, 64] weight matrix, and writes back the same rows of its [50000, 64] output. What the
  body leaves in the output block is the matrix unit's product of the two staged blocks, so at row r of the block and
  column q it is the inner product of row 5000·t + r of the input with column q of the weights: every written block is a
  block of ONE array, the dense product of the two arrays the region found, and the ten blocks cover it.
-/
import proofs.«167582_j40896678592680_1_alg».proof.Proof.Gen.KernelIdeal.Frame
import proofs.«167582_j40896678592680_1_alg».proof.Proof.LibGcnLayer
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the input and the output move down the rows with the point,
    the weights stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, q): the inner product of row p of the first block with column q of the second. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [shapeCast_self]
  exact GcnLayer.unit_dense_apply _ rfl x0 x1 _ _ p q

/-- A block that is rows r … r + 4999 of an array A0, multiplied by a block that is the array A1, is those rows of the
    dense product of A0 and A1. -/
theorem block_dense (x0 : Vec Ideal S5000x128 .f32) (x1 : Vec Ideal S128x64 .f32)
    (A0 : S50000x128.Idx → EReal) (A1 : S128x64.Idx → EReal) (r : Nat)
    (hx0 : ∀ (y : S5000x128.Idx) (i : S50000x128.Idx), (i 0).val = r + (y 0).val → (i 1).val = (y 1).val → x0 y = A0 i)
    (hx1 : x1 = A1) (y : S5000x64.Idx) (i : S50000x64.Idx)
    (h0 : (i 0).val = r + (y 0).val) (h1 : (i 1).val = (y 1).val) :
    k2_pay1 x0 x1 y = GcnLayer.dense A0 A1 i := by
  subst hx1
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext h1
  subst hq
  rw [pay_apply, GcnLayer.dense_apply]
  refine Finset.sum_congr rfl fun k _ => ?_
  rw [hx0 (ix2 p k) (ix2 p' k) h0 rfl]

/-- The input window's block at point t is rows 5000·t … of the array the region found. -/
theorem rows_apply (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v44 : S50000x128.Idx → EReal) i := by
  obtain ⟨e0, e1, -⟩ := idx_facts t
  unfold iblk2
  rw [View.read_apply]
  show V c main_v44 _ = V c main_v44 i
  refine congrArg (V c main_v44) ?_
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's block is the whole weight array at every point. -/
theorem weights_eq (c : Dev nD) (t : Fin cfg2.N) :
    (iblk2 V c 1 t : Vec Ideal S128x64 .f32) = (V c main_arg5 : S128x64.Idx → EReal) := by
  obtain ⟨-, -, e2, e3, -⟩ := idx_facts t
  funext y
  unfold iblk2
  rw [View.read_apply]
  show V c main_arg5 _ = V c main_arg5 y
  refine congrArg (V c main_arg5) ?_
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- What point t writes back is block t of the dense product of the two arrays the region found. -/
theorem flushed_eq (c : Dev nD) (t : Fin cfg2.N) :
    (dat2 V c).flushed 2 t
      = ((cfg2.win 2).blk t).view.read (Elt Ideal) (GcnLayer.dense (V c main_v44) (V c main_arg5)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext j
  show k2_pay1 (iblk2 V c 0 t) (iblk2 V c 1 t) j
    = GcnLayer.dense (V c main_v44) (V c main_arg5) (((cfg2.win 2).blk t).view.emb j)
  refine block_dense (iblk2 V c 0 t) (iblk2 V c 1 t) (V c main_v44) (V c main_arg5) (t.val * 5000)
    (fun y i h0 h1 => rows_apply V c t y i h0 h1) (weights_eq V c t) j (((cfg2.win 2).blk t).view.emb j) ?_ ?_
  · show win2_2.index t (0 : Fin 2) * 5000 + 1 * (j 0).val = t.val * 5000 + (j 0).val; rw [e4]; omega
  · show win2_2.index t (1 : Fin 2) * 64 + 1 * (j 1).val = (j 1).val; rw [e5]; omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v45).slice (win2_2.rect t)).set ↔ _
  rw [View.set_slice_whole, Rect.mem_set_unit]
  exact Iff.rfl

/-- Row r of the output lies in the block of point r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e5]; omega

/-- The region's output array after its ten points: the dense product of the two arrays it found. -/
theorem array_eq (c : Dev nD) :
    (dat2 V c).arrAt 2 cfg2.N = GcnLayer.dense (V c main_v44) (V c main_arg5) :=
  (dat2 V c).arrAt_eq_of_cover 2 _ (fun t _ => flushed_eq V c t) cover

end Cert.KernelIdeal.Region2

end
-- ==== Proof.Region3.lean ====
/-
  Region 3 — the second layer's combination — read as one array.

  The region runs over ten grid points; point t stages rows 5000·t … 5000·t + 4999 of the aggregated messages, of the
  transformed features and of the [50000, 1] column of self-loop weights, the whole [1, 64] bias row, and writes back the
  same rows of its [50000, 64] output. What the body leaves at row r and column q of the output block is
  (agg + h · s) + b of the entries at row 5000·t + r (the last layer is not clamped): every written block is a block of
  ONE array, the combination of the four arrays the region found, and the ten blocks cover it.
-/
import proofs.«167582_j40896678592680_1_alg».proof.Proof.Gen.KernelIdeal.Frame
import proofs.«167582_j40896678592680_1_alg».proof.Proof.LibGcnLayer
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The five windows' block indices at every grid point: the aggregate, the features, the weight column and the output
    move down the rows with the point, the bias row stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's value at (p, q). -/
theorem pay_apply (x0 x1 : Vec Ideal S5000x64 .f32) (x2 : Vec Ideal S5000x1 .f32) (x3 : Vec Ideal S1x64 .f32)
    (p : Fin 5000) (q : Fin 64) :
    k3_pay1 x0 x1 x2 x3 (ix2 p q) = (x0 (ix2 p q) + x1 (ix2 p q) * x2 (ix2 p (0 : Fin 1))) + x3 (ix2 (0 : Fin 1) q) := by
  unfold k3_pay1
  exact GcnLayer.unit_combine_apply x0 x1 x2 x3 _ _ _ _ _ _ p q

/-- Blocks that are rows r … r + 4999 of arrays A0, A1 and of a column A2, with a block that is the row A3, combine to
    those rows of the arrays' combination. -/
theorem block_combine (x0 x1 : Vec Ideal S5000x64 .f32) (x2 : Vec Ideal S5000x1 .f32) (x3 : Vec Ideal S1x64 .f32)
    (A0 A1 : S50000x64.Idx → EReal) (A2 : S50000x1.Idx → EReal) (A3 : S1x64.Idx → EReal) (r : Nat)
    (hx0 : ∀ (y : S5000x64.Idx) (i : S50000x64.Idx), (i 0).val = r + (y 0).val → (i 1).val = (y 1).val → x0 y = A0 i)
    (hx1 : ∀ (y : S5000x64.Idx) (i : S50000x64.Idx), (i 0).val = r + (y 0).val → (i 1).val = (y 1).val → x1 y = A1 i)
    (hx2 : ∀ (y : S5000x1.Idx) (i : S50000x1.Idx), (i 0).val = r + (y 0).val → (i 1).val = (y 1).val → x2 y = A2 i)
    (hx3 : x3 = A3) (y : S5000x64.Idx) (i : S50000x64.Idx)
    (h0 : (i 0).val = r + (y 0).val) (h1 : (i 1).val = (y 1).val) :
    k3_pay1 x0 x1 x2 x3 y = (GcnLayer.combineCR A0 A1 A2 A3) i := by
  subst hx3
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext h1
  subst hq
  rw [pay_apply, GcnLayer.combineCR_apply,
    hx0 (ix2 p q') (ix2 p' q') h0 rfl, hx1 (ix2 p q') (ix2 p' q') h0 rfl,
    hx2 (ix2 p (0 : Fin 1)) (ix2 p' (0 : Fin 1)) h0 rfl]

/-- The aggregate window's block at point t is rows 5000·t … of the array the region found. -/
theorem agg_apply (c : Dev nD) (t : Fin cfg3.N) (y : S5000x64.Idx) (i : S50000x64.Idx)
    (h0 : (i 0).val = t.val * 5000 + (y 0).val) (h1 : (i 1).val = (y 1).val) :
    (iblk3 V c 0 t : Vec Ideal S5000x64 .f32) y = (V c main_v58 : S50000x64.Idx → EReal) i := by
  obtain ⟨e0, e1, -⟩ := idx_facts t
  unfold iblk3
  rw [View.read_apply]
  show V c main_v58 _ = V c main_v58 i
  refine congrArg (V c main_v58) ?_
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The feature window's block at point t is rows 5000·t … of the array the region found. -/
theorem feat_apply (c : Dev nD) (t : Fin cfg3.N) (y : S5000x64.Idx) (i : S50000x64.Idx)
    (h0 : (i 0).val = t.val * 5000 + (y 0).val) (h1 : (i 1).val = (y 1).val) :
    (iblk3 V c 1 t : Vec Ideal S5000x64 .f32) y = (V c main_v45 : S50000x64.Idx → EReal) i := by
  obtain ⟨-, -, e0, e1, -⟩ := idx_facts t
  unfold iblk3
  rw [View.read_apply]
  show V c main_v45 _ = V c main_v45 i
  refine congrArg (V c main_v45) ?_
  funext a
  apply Fin.ext
  match a with
  | ⟨0, _⟩ => show win3_1.index t (0 : Fin 2) * 5000 + 1 * (y 0).val = (i 0).val; rw [e0, h0]; omega
  | ⟨1, _⟩ => show win3_1.index t (1 : Fin 2) * 64 + 1 * (y 1).val = (i 1).val; rw [e1, h1]; omega

/-- The weight column's block at point t is rows 5000·t … of the column the region found. -/
theorem col_apply (c : Dev nD) (t : Fin cfg3.N) (y : S5000x1.Idx) (i : S50000x1.Idx)
    (h0 : (i 0).val = t.val * 5000 + (y 0).val) (h1 : (i 1).val = (y 1).val) :
    (iblk3 V c 2 t : Vec Ideal S5000x1 .f32) y = (V c main_v28 : S50000x1.Idx → EReal) i := by
  obtain ⟨-, -, -, -, e0, e1, -⟩ := idx_facts t
  unfold iblk3
  rw [View.read_apply]
  show V c main_v28 _ = V c main_v28 i
  refine congrArg (V c main_v28) ?_
  funext a
  apply Fin.ext
  match a with
  | ⟨0, _⟩ => show win3_2.index t (0 : Fin 2) * 5000 + 1 * (y 0).val = (i 0).val; rw [e0, h0]; omega
  | ⟨1, _⟩ => show win3_2.index t (1 : Fin 2) * 1 + 1 * (y 1).val = (i 1).val; rw [e1, h1]; omega

/-- The bias row's block is the whole row at every point. -/
theorem row_eq (c : Dev nD) (t : Fin cfg3.N) :
    (iblk3 V c 3 t : Vec Ideal S1x64 .f32) = (V c main_v59 : S1x64.Idx → EReal) := by
  obtain ⟨-, -, -, -, -, -, e2, e3, -⟩ := idx_facts t
  funext y
  unfold iblk3
  rw [View.read_apply]
  show V c main_v59 _ = V c main_v59 y
  refine congrArg (V c main_v59) ?_
  funext a
  apply Fin.ext
  match a with
  | ⟨0, _⟩ => show win3_3.index t (0 : Fin 2) * 1 + 1 * (y 0).val = (y 0).val; rw [e2]; omega
  | ⟨1, _⟩ => show win3_3.index t (1 : Fin 2) * 64 + 1 * (y 1).val = (y 1).val; rw [e3]; omega

/-- What point t writes back is block t of the combination of the four arrays the region found. -/
theorem flushed_eq (c : Dev nD) (t : Fin cfg3.N) :
    (dat3 V c).flushed 4 t
      = ((cfg3.win 4).blk t).view.read (Elt Ideal)
          ((GcnLayer.combineCR (V c main_v58) (V c main_v45) (V c main_v28) (V c main_v59))) := by
  obtain ⟨-, -, -, -, -, -, -, -, e4, e5⟩ := idx_facts t
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  funext j
  show k3_pay1 (iblk3 V c 0 t) (iblk3 V c 1 t) (iblk3 V c 2 t) (iblk3 V c 3 t) j
    = (GcnLayer.combineCR (V c main_v58) (V c main_v45) (V c main_v28) (V c main_v59)) (((cfg3.win 4).blk t).view.emb j)
  refine block_combine (iblk3 V c 0 t) (iblk3 V c 1 t) (iblk3 V c 2 t) (iblk3 V c 3 t)
    (V c main_v58) (V c main_v45) (V c main_v28) (V c main_v59) (t.val * 5000)
    (fun y i h0 h1 => agg_apply V c t y i h0 h1) (fun y i h0 h1 => feat_apply V c t y i h0 h1)
    (fun y i h0 h1 => col_apply V c t y i h0 h1) (row_eq V c t) j (((cfg3.win 4).blk t).view.emb j) ?_ ?_
  · show win3_4.index t (0 : Fin 2) * 5000 + 1 * (j 0).val = t.val * 5000 + (j 0).val; rw [e4]; omega
  · show win3_4.index t (1 : Fin 2) * 64 + 1 * (j 1).val = (j 1).val; rw [e5]; omega

/-- An index of the output array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v60).slice (win3_4.rect t)).set ↔ _
  rw [View.set_slice_whole, Rect.mem_set_unit]
  exact Iff.rfl

/-- Row r of the output lies in the block of point r / 5000. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, -, -, -, -, e4, e5⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e5]; omega

/-- The region's output array after its ten points: the combination of the four arrays it found. -/
theorem array_eq (c : Dev nD) :
    (dat3 V c).arrAt 4 cfg3.N
      = (GcnLayer.combineCR (V c main_v58) (V c main_v45) (V c main_v28) (V c main_v59)) :=
  (dat3 V c).arrAt_eq_of_cover 4 _ (fun t _ => flushed_eq V c t) cover

end Cert.KernelIdeal.Region3

end
-- ==== Proof.KernelChain.lean ====
/-
  The idealized kernel's boundary contents, followed from the launch memory to the result.

  Between the launch and the return the program's buffers pass seven boundaries. A stretch of host operations writes its
  own results and leaves every other buffer alone; a kernel region writes its one output array — the dense product or the
  layer's combination of the arrays it found (the region modules) — and leaves every other buffer alone. Following each
  buffer the result depends on back through the boundaries gives the result as one term of the seven argument arrays:

      src, dst, ew         the edge list's two rows and the edge weights as vectors
      dinv                 rsqrt(segment_sum(ew, dst) + 1)
      norm                 dinv[src] · ew · dinv[dst]
      h1 = x · W1          y1 = max((agg(h1) + h1 · dinv²) + b1, 0)
      h2 = y1 · W2         out = (agg(h2) + h2 · dinv²) + b2

  with agg(h) = segment_sum(h[src] · norm, dst), the graph's normalisation computed once and read by both layers.
-/
import proofs.«167582_j40896678592680_1_alg».proof.Proof.Gen.KernelIdeal.Frame
import proofs.«167582_j40896678592680_1_alg».proof.Proof.LibGcnLayer
import proofs.«167582_j40896678592680_1_alg».proof.Proof.Region0
import proofs.«167582_j40896678592680_1_alg».proof.Proof.Region1
import proofs.«167582_j40896678592680_1_alg».proof.Proof.Region2
import proofs.«167582_j40896678592680_1_alg».proof.Proof.Region3
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

/-! ## The host stretches' results as functions of what they read -/

/-- The edges' source nodes: row 0 of the edge list, as a vector. -/
def src (ei : IVec S2x800000 32) : IVec S800000 32 :=
  shapeCast _ (extractStridedSlice S1x800000 ![0, 0] ei slices_S2x800000_S1x800000_0_0) shapeCasts_S1x800000_S800000

/-- The edges' target nodes: row 1 of the edge list, as a vector. -/
def dst (ei : IVec S2x800000 32) : IVec S800000 32 :=
  shapeCast _ (extractStridedSlice S1x800000 ![1, 0] ei slices_S2x800000_S1x800000_1_0) shapeCasts_S1x800000_S800000

/-- The edge weights as a vector. -/
def ew (w : FVec Ideal S800000x1 .f32) : FVec Ideal S800000 .f32 :=
  shapeCast _ w shapeCasts_S800000x1_S800000

/-- A vector of node numbers as the column of start indices of a gather: a negative number counted from the end. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The inverse square root of every node's degree, its self-loop of weight one included. -/
def dinv (ei : IVec S2x800000 32) (w : FVec Ideal S800000x1 .f32) : FVec Ideal S50000 .f32 :=
  Host.rsqrt (addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (dst ei)) (ew w))
    (broadcastInDim S50000 ![] bcast_S_S50000 (constant (F := Ideal) S_ .f32 0x3F800000#32)))

/-- Every edge's normalised weight: dinv[src] · ew · dinv[dst]. -/
def norm (ei : IVec S2x800000 32) (w : FVec Ideal S800000x1 .f32) : FVec Ideal S800000 .f32 :=
  mulf (mulf (Host.gather gather_S50000_S800000x1_S800000_n_0_n_n_0_1_1 (dinv ei w) (wrapCol (src ei))) (ew w))
    (Host.gather gather_S50000_S800000x1_S800000_n_0_n_n_0_1_1 (dinv ei w) (wrapCol (dst ei)))

/-- Every node's self-loop weight dinv², as a vector. -/
def selfw (ei : IVec S2x800000 32) (w : FVec Ideal S800000x1 .f32) : FVec Ideal S50000 .f32 :=
  mulf (dinv ei w) (dinv ei w)

/-- The messages of 128 features summed into their target nodes: segment_sum(h[src] · norm, dst). -/
def agg128 (h : FVec Ideal S50000x128 .f32) (s d : IVec S800000 32) (nrm : FVec Ideal S800000 .f32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf (Host.gather gather_S50000x128_S800000x1_S800000x128_1_0_n_n_0_1_1128 h (wrapCol s))
      (broadcastInDim S800000x128 ![0, 1] bcast_S800000x1_S800000x128_0_1
        (broadcastInDim S800000x1 ![0] bcast_S800000_S800000x1_0 nrm)))

/-- The messages of 64 features summed into their target nodes. -/
def agg64 (h : FVec Ideal S50000x64 .f32) (s d : IVec S800000 32) (nrm : FVec Ideal S800000 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (mulf (Host.gather gather_S50000x64_S800000x1_S800000x64_1_0_n_n_0_1_164 h (wrapCol s))
      (broadcastInDim S800000x64 ![0, 1] bcast_S800000x1_S800000x64_0_1
        (broadcastInDim S800000x1 ![0] bcast_S800000_S800000x1_0 nrm)))

variable (m : (ℓ : Loc nD τ sig) → Buf (Elt Ideal) ℓ) (ρ : Dev nD → PrngReg)

/-! ## Boundary 1: after the first stretch (the graph's normalisation) -/

theorem W1_main_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp
theorem W1_main_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp
theorem W1_main_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp
theorem W1_main_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp
theorem W1_main_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp

theorem W1_main_v1 (c : Dev nD) : W1 m ρ c (Proc.devRef .tc main_v1) = src (m ((c : Thread nD τ).loc main_arg1)) := by
  show StableHlo.after hostOps0 (W0 m ρ c) (Proc.devRef .tc main_v1) = _
  dsimp only [hostOps0]
  after_results_simp
  rfl
theorem W1_main_v3 (c : Dev nD) : W1 m ρ c (Proc.devRef .tc main_v3) = dst (m ((c : Thread nD τ).loc main_arg1)) := by
  show StableHlo.after hostOps0 (W0 m ρ c) (Proc.devRef .tc main_v3) = _
  dsimp only [hostOps0]
  after_results_simp
  rfl
theorem W1_main_v26 (c : Dev nD) : W1 m ρ c (Proc.devRef .tc main_v26)
    = norm (m ((c : Thread nD τ).loc main_arg1)) (m ((c : Thread nD τ).loc main_arg2)) := by
  show StableHlo.after hostOps0 (W0 m ρ c) (Proc.devRef .tc main_v26) = _
  dsimp only [hostOps0]
  after_results_simp
  rfl
theorem W1_main_v28 (c : Dev nD) : W1 m ρ c (Proc.devRef .tc main_v28)
    = shapeCast S50000x1 (selfw (m ((c : Thread nD τ).loc main_arg1)) (m ((c : Thread nD τ).loc main_arg2))) shapeCasts_S50000_S50000x1 := by
  show StableHlo.after hostOps0 (W0 m ρ c) (Proc.devRef .tc main_v28) = _
  dsimp only [hostOps0]
  after_results_simp
  rfl

/-! ## Boundary 2: after region 0 (h1 = x · W1) -/

theorem W2_main_v1 (c : Dev nD) : W2 m ρ c (Proc.devRef .tc main_v1) = W1 m ρ c (Proc.devRef .tc main_v1) :=
  W2_of_ne m ρ c main_v1 (by decide)
theorem W2_main_v3 (c : Dev nD) : W2 m ρ c (Proc.devRef .tc main_v3) = W1 m ρ c (Proc.devRef .tc main_v3) :=
  W2_of_ne m ρ c main_v3 (by decide)
theorem W2_main_v26 (c : Dev nD) : W2 m ρ c (Proc.devRef .tc main_v26) = W1 m ρ c (Proc.devRef .tc main_v26) :=
  W2_of_ne m ρ c main_v26 (by decide)
theorem W2_main_v28 (c : Dev nD) : W2 m ρ c (Proc.devRef .tc main_v28) = W1 m ρ c (Proc.devRef .tc main_v28) :=
  W2_of_ne m ρ c main_v28 (by decide)
theorem W2_main_arg4 (c : Dev nD) : W2 m ρ c (Proc.devRef .tc main_arg4) = W1 m ρ c (Proc.devRef .tc main_arg4) :=
  W2_of_ne m ρ c main_arg4 (by decide)
theorem W2_main_arg5 (c : Dev nD) : W2 m ρ c (Proc.devRef .tc main_arg5) = W1 m ρ c (Proc.devRef .tc main_arg5) :=
  W2_of_ne m ρ c main_arg5 (by decide)
theorem W2_main_arg6 (c : Dev nD) : W2 m ρ c (Proc.devRef .tc main_arg6) = W1 m ρ c (Proc.devRef .tc main_arg6) :=
  W2_of_ne m ρ c main_arg6 (by decide)

theorem W2_main_v29 (c : Dev nD) : W2 m ρ c (Proc.devRef .tc main_v29)
    = GcnLayer.dense (m ((c : Thread nD τ).loc main_arg0)) (m ((c : Thread nD τ).loc main_arg3)) := by
  refine (W2_arr m ρ c 2).trans ((Region0.array_eq (V1 m ρ) c).trans ?_)
  rw [show V1 m ρ c main_arg0 = m ((c : Thread nD τ).loc main_arg0) from W1_main_arg0 m ρ c,
    show V1 m ρ c main_arg3 = m ((c : Thread nD τ).loc main_arg3) from W1_main_arg3 m ρ c]

/-! ## Boundary 3: after the second stretch (the first layer's messages, the bias as a row) -/

theorem W3_main_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results_simp
theorem W3_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results_simp
theorem W3_main_v26 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp
theorem W3_main_v28 (c : Dev nD) : W3 m ρ c (Proc.devRef .tc main_v28) = W2 m ρ c (Proc.devRef .tc main_v28) := by
  show StableHlo.after hostOps1 (W2 m ρ c) (Proc.devRef .tc main_v28) = _
  dsimp only [hostOps1]
  after_results_simp
theorem W3_main_v29 (c : Dev nD) : W3 m ρ c (Proc.devRef .tc main_v29) = W2 m ρ c (Proc.devRef .tc main_v29) := by
  show StableHlo.after hostOps1 (W2 m ρ c) (Proc.devRef .tc main_v29) = _
  dsimp only [hostOps1]
  after_results_simp
theorem W3_main_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results_simp
theorem W3_main_arg6 (c : Dev nD) : W3 m ρ c (Proc.devRef .tc main_arg6) = W2 m ρ c (Proc.devRef .tc main_arg6) := by
  show StableHlo.after hostOps1 (W2 m ρ c) (Proc.devRef .tc main_arg6) = _
  dsimp only [hostOps1]
  after_results_simp

theorem W3_main_v42 (c : Dev nD) : W3 m ρ c (Proc.devRef .tc main_v42)
    = agg128 (W2 m ρ c (Proc.devRef .tc main_v29)) (W2 m ρ c (Proc.devRef .tc main_v1)) (W2 m ρ c (Proc.devRef .tc main_v3))
        (W2 m ρ c (Proc.devRef .tc main_v26)) := by
  show StableHlo.after hostOps1 (W2 m ρ c) (Proc.devRef .tc main_v42) = _
  dsimp only [hostOps1]
  after_results_simp
  rfl
theorem W3_main_v43 (c : Dev nD) : W3 m ρ c (Proc.devRef .tc main_v43)
    = shapeCast S1x128 (W2 m ρ c (Proc.devRef .tc main_arg4)) shapeCasts_S128_S1x128 := by
  show StableHlo.after hostOps1 (W2 m ρ c) (Proc.devRef .tc main_v43) = _
  dsimp only [hostOps1]
  after_results_simp
  rfl

/-! ## Boundary 4: after region 1 (y1, the first layer's output) -/

theorem W4_main_v1 (c : Dev nD) : W4 m ρ c (Proc.devRef .tc main_v1) = W3 m ρ c (Proc.devRef .tc main_v1) :=
  W4_of_ne m ρ c main_v1 (by decide)
theorem W4_main_v3 (c : Dev nD) : W4 m ρ c (Proc.devRef .tc main_v3) = W3 m ρ c (Proc.devRef .tc main_v3) :=
  W4_of_ne m ρ c main_v3 (by decide)
theorem W4_main_v26 (c : Dev nD) : W4 m ρ c (Proc.devRef .tc main_v26) = W3 m ρ c (Proc.devRef .tc main_v26) :=
  W4_of_ne m ρ c main_v26 (by decide)
theorem W4_main_arg5 (c : Dev nD) : W4 m ρ c (Proc.devRef .tc main_arg5) = W3 m ρ c (Proc.devRef .tc main_arg5) :=
  W4_of_ne m ρ c main_arg5 (by decide)
theorem W4_main_arg6 (c : Dev nD) : W4 m ρ c (Proc.devRef .tc main_arg6) = W3 m ρ c (Proc.devRef .tc main_arg6) :=
  W4_of_ne m ρ c main_arg6 (by decide)
theorem W4_main_v28 (c : Dev nD) : W4 m ρ c (Proc.devRef .tc main_v28) = W3 m ρ c (Proc.devRef .tc main_v28) :=
  (W4_arr m ρ c 2).trans (((dat1 (V3 m ρ) c).arrAt_in 2 rfl _).trans (A_eq1 (V3 m ρ) c 2))

theorem W4_main_v44 (c : Dev nD) : W4 m ρ c (Proc.devRef .tc main_v44)
    = GcnLayer.clamp (GcnLayer.combineCR (W3 m ρ c (Proc.devRef .tc main_v42)) (W3 m ρ c (Proc.devRef .tc main_v29))
        (W3 m ρ c (Proc.devRef .tc main_v28)) (W3 m ρ c (Proc.devRef .tc main_v43))) :=
  (W4_arr m ρ c 4).trans (Region1.array_eq (V3 m ρ) c)

/-! ## Boundary 5: after region 2 (h2 = y1 · W2) -/

theorem W5_main_v1 (c : Dev nD) : W5 m ρ c (Proc.devRef .tc main_v1) = W4 m ρ c (Proc.devRef .tc main_v1) :=
  W5_of_ne m ρ c main_v1 (by decide)
theorem W5_main_v3 (c : Dev nD) : W5 m ρ c (Proc.devRef .tc main_v3) = W4 m ρ c (Proc.devRef .tc main_v3) :=
  W5_of_ne m ρ c main_v3 (by decide)
theorem W5_main_v26 (c : Dev nD) : W5 m ρ c (Proc.devRef .tc main_v26) = W4 m ρ c (Proc.devRef .tc main_v26) :=
  W5_of_ne m ρ c main_v26 (by decide)
theorem W5_main_v28 (c : Dev nD) : W5 m ρ c (Proc.devRef .tc main_v28) = W4 m ρ c (Proc.devRef .tc main_v28) :=
  W5_of_ne m ρ c main_v28 (by decide)
theorem W5_main_arg6 (c : Dev nD) : W5 m ρ c (Proc.devRef .tc main_arg6) = W4 m ρ c (Proc.devRef .tc main_arg6) :=
  W5_of_ne m ρ c main_arg6 (by decide)

theorem W5_main_v45 (c : Dev nD) : W5 m ρ c (Proc.devRef .tc main_v45)
    = GcnLayer.dense (W4 m ρ c (Proc.devRef .tc main_v44)) (W4 m ρ c (Proc.devRef .tc main_arg5)) :=
  (W5_arr m ρ c 2).trans (Region2.array_eq (V4 m ρ) c)

/-! ## Boundary 6: after the third stretch (the second layer's messages, the bias as a row) -/

theorem W6_main_v28 (c : Dev nD) : W6 m ρ c (Proc.devRef .tc main_v28) = W5 m ρ c (Proc.devRef .tc main_v28) := by
  show StableHlo.after hostOps3 (W5 m ρ c) (Proc.devRef .tc main_v28) = _
  dsimp only [hostOps3]
  after_results_simp
theorem W6_main_v45 (c : Dev nD) : W6 m ρ c (Proc.devRef .tc main_v45) = W5 m ρ c (Proc.devRef .tc main_v45) := by
  show StableHlo.after hostOps3 (W5 m ρ c) (Proc.devRef .tc main_v45) = _
  dsimp only [hostOps3]
  after_results_simp

theorem W6_main_v58 (c : Dev nD) : W6 m ρ c (Proc.devRef .tc main_v58)
    = agg64 (W5 m ρ c (Proc.devRef .tc main_v45)) (W5 m ρ c (Proc.devRef .tc main_v1)) (W5 m ρ c (Proc.devRef .tc main_v3))
        (W5 m ρ c (Proc.devRef .tc main_v26)) := by
  show StableHlo.after hostOps3 (W5 m ρ c) (Proc.devRef .tc main_v58) = _
  dsimp only [hostOps3]
  after_results_simp
  rfl
theorem W6_main_v59 (c : Dev nD) : W6 m ρ c (Proc.devRef .tc main_v59)
    = shapeCast S1x64 (W5 m ρ c (Proc.devRef .tc main_arg6)) shapeCasts_S64_S1x64 := by
  show StableHlo.after hostOps3 (W5 m ρ c) (Proc.devRef .tc main_v59) = _
  dsimp only [hostOps3]
  after_results_simp
  rfl

/-! ## Boundary 7: after region 3 (the result) -/

theorem W7_main_v60 (c : Dev nD) : W7 m ρ c (Proc.devRef .tc main_v60)
    = GcnLayer.combineCR (W6 m ρ c (Proc.devRef .tc main_v58)) (W6 m ρ c (Proc.devRef .tc main_v45))
        (W6 m ρ c (Proc.devRef .tc main_v28)) (W6 m ρ c (Proc.devRef .tc main_v59)) :=
  (W7_arr m ρ c 4).trans (Region3.array_eq (V6 m ρ) c)

end Cert.KernelIdeal.Chain

end
-- ==== Proof.KernelRun.lean ====
/-
  The idealized kernel's run, read at its last boundary.

  @main is seven segments: three stretches of host operations and four kernel regions. The buffer contents at the
  boundaries are a fold from the launch memory (`W1` … `W7`): a host stretch applies its operations, a region replaces
  its arrays by what its write-backs leave and keeps every other buffer. The launch theorem for a program of several
  regions ends with every unscoped buffer at the last boundary's contents `W7`. Stated once for any postcondition that
  follows from that (`run_ends`), and then for the one used here: the result buffer at `W7 … main_v60`, the argument
  arrays as launched (`run_out`).
-/
import proofs.«167582_j40896678592680_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a state whose every unscoped buffer holds
    the last boundary's contents; so any postcondition that follows from that holds of it. -/
theorem run_ends {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The run ends with the result buffer at the last boundary's contents and the argument arrays as launched. -/
theorem run_out : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_ends m ρ fun s h c =>
    ⟨h c _ (mem_uc main_v60 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩

end Cert.KernelIdeal.Whole

end
-- ==== Proof.KernelValue.lean ====
/-
  The idealized kernel's result as one term of its seven arguments, and its run stated with that term.

  Reading the last boundary's result buffer back through the seven boundaries (the chain module) gives

      y1  = max((agg(x · W1) + (x · W1) · dinv²) + b1, 0)
      out = (agg(y1 · W2) + (y1 · W2) · dinv²) + b2

  with the self-loop weights dinv² kept as a [50000, 1] column and each bias as a one-row matrix, as the regions read them.
-/
import proofs.«167582_j40896678592680_1_alg».proof.Proof.KernelChain
import proofs.«167582_j40896678592680_1_alg».proof.Proof.KernelRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- The first layer's output. -/
def layer1 (x : FVec Ideal S50000x128 .f32) (ei : IVec S2x800000 32) (w : FVec Ideal S800000x1 .f32)
    (W1 : FVec Ideal S128x128 .f32) (b1 : FVec Ideal S128 .f32) : FVec Ideal S50000x128 .f32 :=
  GcnLayer.clamp (GcnLayer.combineCR (agg128 (GcnLayer.dense x W1) (src ei) (dst ei) (norm ei w)) (GcnLayer.dense x W1)
    (shapeCast S50000x1 (selfw ei w) shapeCasts_S50000_S50000x1) (shapeCast S1x128 b1 shapeCasts_S128_S1x128))

/-- The second layer's output: the program's result. -/
def out (x : FVec Ideal S50000x128 .f32) (ei : IVec S2x800000 32) (w : FVec Ideal S800000x1 .f32)
    (W1 : FVec Ideal S128x128 .f32) (b1 : FVec Ideal S128 .f32) (W2 : FVec Ideal S128x64 .f32)
    (b2 : FVec Ideal S64 .f32) : FVec Ideal S50000x64 .f32 :=
  GcnLayer.combineCR (agg64 (GcnLayer.dense (layer1 x ei w W1 b1) W2) (src ei) (dst ei) (norm ei w))
    (GcnLayer.dense (layer1 x ei w W1 b1) W2)
    (shapeCast S50000x1 (selfw ei w) shapeCasts_S50000_S50000x1) (shapeCast S1x64 b2 shapeCasts_S64_S1x64)

variable (m : (ℓ : Loc nD τ sig) → Buf (Elt Ideal) ℓ) (ρ : Dev nD → PrngReg)

/-- The last boundary's result buffer is `out` of the launch memory's argument arrays. -/
theorem W7_out (c : Dev nD) : W7 m ρ c (Proc.devRef .tc main_v60)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W7_main_v60, W6_main_v58, W6_main_v45, W6_main_v28, W6_main_v59, W5_main_v45, W5_main_v1, W5_main_v3, W5_main_v26,
    W5_main_v28, W5_main_arg6, W4_main_v44, W4_main_arg5, W4_main_v1, W4_main_v3, W4_main_v26, W4_main_v28, W4_main_arg6,
    W3_main_v42, W3_main_v29, W3_main_v28, W3_main_v43, W3_main_arg5, W3_main_v1, W3_main_v3, W3_main_v26, W3_main_arg6,
    W2_main_v29, W2_main_v1, W2_main_v3, W2_main_v26, W2_main_v28, W2_main_arg4, W2_main_arg5, W2_main_arg6,
    W1_main_v1, W1_main_v3, W1_main_v26, W1_main_v28, W1_main_arg4, W1_main_arg5, W1_main_arg6]
  rfl

/-- Every weakly fair execution of @main terminates, nothing faulting, with the result buffer at `out` of the argument
    arrays and the argument arrays as launched. -/
theorem run : θ_run defs (onTc (τ := τ) (main (F := Ideal))) ⟨m, fun _ => 0, ρ⟩ (fun r => ∀ c : Dev nD,
      r.2.mem ((c.tc : Thread nD τ).loc main_v60)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W7_out m ρ c), (h c).2⟩) (Whole.run_out m ρ)

end Cert.KernelIdeal.Chain

end
-- ==== Proof.Bridge.lean ====
/-
  The reference's stages are the kernel's result, array by array.

  The reference computes the same two layers on the host. Its edge bookkeeping (source and target vectors, the wrapped
  gather columns), its normalisation (dinv, norm, dinv²) and its message sums are the very host operations the kernel's
  program applies between its regions — the reference merely computes the normalisation once per layer where the kernel
  computes it once —, so those stages are equal by unfolding names. What differs in spelling, and is equal as arrays
  over the extended reals:
    the products: a host dot_general against the matrix unit's product, both the dense product (`GcnLayer.dense`);
    each layer's closing sum (agg + h · dinv²) + b: the self-loop weights and the bias spread by two broadcasts on the
    host, read from a column and a row in the regions — one function, `GcnLayer.combine`, of the same four arrays;
    the first layer's clamp: a maximum with a broadcast zero constant against a maximum with a splat zero.
  No law of arithmetic is used beyond reading these operations entry by entry: the two sides group every sum and product
  alike, so nothing here needs the inputs to be finite.
-/
import proofs.«167582_j40896678592680_1_alg».proof.Proof.KernelValue
import proofs.«167582_j40896678592680_1_alg».proof.Proof.Gen.ReferenceIdeal.Read

set_option maxRecDepth 16384

noncomputable section

namespace Cert.Bridge

open Idealize.ShloMosaic Idealize.ShloMosaic.TcCoe
open Cert.ReferenceIdeal.Read
open Cert.KernelIdeal.Chain

variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S800000x1, .f32⟩ : BufTy).Contents (Elt Ideal)) (x3 : (⟨Cert.ReferenceIdeal.S128x128, .f32⟩ : BufTy).Contents (Elt Ideal))
  (x4 : (⟨Cert.ReferenceIdeal.S128, .f32⟩ : BufTy).Contents (Elt Ideal)) (x5 : (⟨Cert.ReferenceIdeal.S128x64, .f32⟩ : BufTy).Contents (Elt Ideal))
  (x6 : (⟨Cert.ReferenceIdeal.S64, .f32⟩ : BufTy).Contents (Elt Ideal))

/-! ## The shared host stages, by unfolding names -/

theorem src_eq : val_main_v1 (F := Ideal) x1 = src x1 := rfl
theorem dst_eq : val_main_v3 (F := Ideal) x1 = dst x1 := rfl
theorem ew_eq : val_main_v4 (F := Ideal) x2 = ew x2 := rfl

/-- The gather columns of the two layers and of the normalisation: the wrapped source and target vectors. -/
theorem col17_eq : val_main_v17 (F := Ideal) x1 = wrapCol (src x1) := rfl
theorem col25_eq : val_main_v25 (F := Ideal) x1 = wrapCol (dst x1) := rfl
theorem col33_eq : val_main_v33 (F := Ideal) x1 = wrapCol (src x1) := rfl
theorem col62_eq : val_main_v62 (F := Ideal) x1 = wrapCol (src x1) := rfl
theorem col70_eq : val_main_v70 (F := Ideal) x1 = wrapCol (dst x1) := rfl
theorem col78_eq : val_main_v78 (F := Ideal) x1 = wrapCol (src x1) := rfl

/-- The reference's inverse square-root degrees, computed for the first layer and again for the second. -/
theorem dinv_eq : val_main_v11 (F := Ideal) x1 x2 = dinv x1 x2 := rfl
theorem dinv_eq' : val_main_v56 (F := Ideal) x1 x2 = dinv x1 x2 := rfl

/-- The reference's edge weights after normalisation, for the first layer and again for the second. -/
theorem norm_eq : val_main_v27 (F := Ideal) x1 x2 = Cert.KernelIdeal.Chain.norm x1 x2 := by
  unfold val_main_v27 val_main_v19 val_main_v18 val_main_v26 Cert.KernelIdeal.Chain.norm
  rw [dinv_eq, col17_eq, col25_eq, ew_eq]
  rfl
theorem norm_eq' : val_main_v72 (F := Ideal) x1 x2 = Cert.KernelIdeal.Chain.norm x1 x2 := by
  unfold val_main_v72 val_main_v64 val_main_v63 val_main_v71 Cert.KernelIdeal.Chain.norm
  rw [dinv_eq', col62_eq, col70_eq, ew_eq]
  rfl

/-- The reference's self-loop weights, for the first layer and again for the second. -/
theorem selfw_eq : val_main_v41 (F := Ideal) x1 x2 = selfw x1 x2 := by
  unfold val_main_v41 selfw; rw [dinv_eq]
theorem selfw_eq' : val_main_v86 (F := Ideal) x1 x2 = selfw x1 x2 := by
  unfold val_main_v86 selfw; rw [dinv_eq']

/-! ## The first layer -/

/-- The reference's first product is the dense product. -/
theorem h1_eq : val_main_v5 (F := Ideal) x0 x3 = GcnLayer.dense x0 x3 :=
  GcnLayer.host_dense _ rfl x0 x3

/-- The reference's first message sum is the kernel program's, of the same features. -/
theorem agg1_eq : val_main_v40 (F := Ideal) x0 x1 x2 x3
    = agg128 (val_main_v5 (F := Ideal) x0 x3) (src x1) (dst x1) (Cert.KernelIdeal.Chain.norm x1 x2) := by
  unfold val_main_v40 val_main_v37 val_main_v34 val_main_v36 val_main_v35 val_main_v39 val_main_v38 val_main_cst_6 agg128
  rw [norm_eq, col33_eq, dst_eq]
  rfl

/-- The reference's first layer is the kernel's. -/
theorem layer1_eq : val_main_v49 (F := Ideal) x0 x1 x2 x3 x4 = layer1 x0 x1 x2 x3 x4 := by
  unfold val_main_v49 val_main_v48 val_main_v45 val_main_v44 val_main_v43 val_main_v42 val_main_v47 val_main_v46
    val_main_call0_v0 val_main_call0_cst layer1
  rw [GcnLayer.host_clamp, GcnLayer.host_combine, GcnLayer.combineCR_casts, agg1_eq, selfw_eq, h1_eq]

/-! ## The second layer -/

/-- The reference's second product is the dense product of the first layer's output. -/
theorem h2_eq : val_main_v50 (F := Ideal) x0 x1 x2 x3 x4 x5 = GcnLayer.dense (layer1 x0 x1 x2 x3 x4) x5 := by
  unfold val_main_v50
  rw [GcnLayer.host_dense Cert.ReferenceIdeal.dot_S50000x128_S128x64_S50000x64_1_0_0_1_n_n rfl, layer1_eq]

/-- The reference's second message sum is the kernel program's, of the same features. -/
theorem agg2_eq : val_main_v85 (F := Ideal) x0 x1 x2 x3 x4 x5
    = agg64 (val_main_v50 (F := Ideal) x0 x1 x2 x3 x4 x5) (src x1) (dst x1) (Cert.KernelIdeal.Chain.norm x1 x2) := by
  unfold val_main_v85 val_main_v82 val_main_v79 val_main_v81 val_main_v80 val_main_v84 val_main_v83 val_main_cst_15 agg64
  rw [norm_eq', col78_eq, dst_eq]
  rfl

/-- The reference's result is the kernel's. -/
theorem out_eq : val_main_v93 (F := Ideal) x0 x1 x2 x3 x4 x5 x6 = out x0 x1 x2 x3 x4 x5 x6 := by
  unfold val_main_v93 val_main_v90 val_main_v89 val_main_v88 val_main_v87 val_main_v92 val_main_v91 out
  rw [GcnLayer.host_combine, GcnLayer.combineCR_casts, agg2_eq, selfw_eq', h2_eq]

end Cert.Bridge

end
-- ==== Proof.lean ====
/-
  The certificate of a two-layer graph convolution: a program of four kernel regions among host operations against
  its plain host reference.

  Both programs compute, for node features x, an edge list with weights, and two dense layers (W1, b1), (W2, b2),

      dinv = rsqrt(segment_sum(ew, dst) + 1)         norm = dinv[src] · ew · dinv[dst]
      layer(z, W, b) = (segment_sum((z · W)[src] · norm, dst) + (z · W) · dinv²) + b
      out = layer(max(layer(x, W1, b1), 0), W2, b2).

  The kernel program does each dense product and each closing sum in a kernel region tiled over the nodes and leaves
  the gathers and segment sums to the host; the reference does everything on the host. Over the extended reals the
  regions' arrays are the dense product and the layer's closing sum of the arrays they find (the region modules), the
  kernel's result is therefore one term of the seven arguments (the chain and value modules), and the reference's
  stages are that same term (the bridge): the two results are equal array by array. The idealization rewrote nothing,
  so there is nothing to preserve; the word-level kernel's and the idealized kernel's frames are the generated ones; the
  reference's frame is its generated run with the result dropped.
-/
import proofs.«167582_j40896678592680_1_alg».proof.Defs
import proofs.«167582_j40896678592680_1_alg».proof.Proof.Gen.Kernel
import proofs.«167582_j40896678592680_1_alg».proof.Proof.Gen.Kernel.Frame
import proofs.«167582_j40896678592680_1_alg».proof.Proof.Gen.KernelIdeal
import proofs.«167582_j40896678592680_1_alg».proof.Proof.Gen.KernelIdeal.Frame
import proofs.«167582_j40896678592680_1_alg».proof.Proof.Gen.ReferenceIdeal
import proofs.«167582_j40896678592680_1_alg».proof.Proof.Gen.ReferenceIdeal.Run
import proofs.«167582_j40896678592680_1_alg».proof.Proof.Gen.ReferenceIdeal.Read
import proofs.«167582_j40896678592680_1_alg».proof.Proof.Gen.Pre_finite_inputs
import proofs.«167582_j40896678592680_1_alg».proof.Proof.KernelValue
import proofs.«167582_j40896678592680_1_alg».proof.Proof.Bridge

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories agreeing on the arguments both idealized programs run, and end with the same result array: the
    kernel's at `out` of its arguments, the reference's at its last stage of its own, which is `out` of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.Bridge.out_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
